-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S2x32000000 : Shape := ⟨2, ![2, 32000000]⟩
abbrev S1x1 : Shape := ⟨2, ![1, 1]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S1000000x1 .f32) (main_arg1 : IVec S2x32000000 32) (main_arg2 : FVec F S1x1 .f32) (main_arg3 : FVec F S1x1 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1x1 .f32 := Host.absf main_arg2
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1x1 .f32 := Host.absf main_arg3
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  main_v13
-- ==== Kernel.lean ====
abbrev S1000000x1 : Shape := ⟨2, ![1000000, 1]⟩
abbrev S2x32000000 : Shape := ⟨2, ![2, 32000000]⟩
abbrev S1x1 : Shape := ⟨2, ![1, 1]⟩
abbrev S1x32000000 : Shape := ⟨2, ![1, 32000000]⟩
abbrev S32000000 : Shape := ⟨1, ![32000000]⟩
abbrev S_ : Shape := ⟨0, ![]⟩
abbrev S32000000x1 : Shape := ⟨2, ![32000000, 1]⟩
abbrev S1000000 : Shape := ⟨1, ![1000000]⟩
abbrev S1048576 : Shape := ⟨1, ![1048576]⟩
abbrev S8192x128 : Shape := ⟨2, ![8192, 128]⟩
abbrev S1024x128 : Shape := ⟨2, ![1024, 128]⟩

abbrev nBuf : Space → Nat
  | .hbm => 52
  | .vmem => 10
  | .smem => 0
  | _ => 0

abbrev bufTy : (tb : Table) → Fin (tcTables nBuf tb) → BufTy
  | .hbm, ⟨0, _⟩ => ⟨S1000000x1, .f32⟩
  | .hbm, ⟨1, _⟩ => ⟨S2x32000000, .i32⟩
  | .hbm, ⟨2, _⟩ => ⟨S1x1, .f32⟩
  | .hbm, ⟨3, _⟩ => ⟨S1x1, .f32⟩
  | .hbm, ⟨4, _⟩ => ⟨S1x32000000, .i32⟩
  | .hbm, ⟨5, _⟩ => ⟨S32000000, .i32⟩
  | .hbm, ⟨6, _⟩ => ⟨S1x32000000, .i32⟩
  | .hbm, ⟨7, _⟩ => ⟨S32000000, .i32⟩
  | .hbm, ⟨8, _⟩ => ⟨S_, .i32⟩
  | .hbm, ⟨9, _⟩ => ⟨S32000000, .i32⟩
  | .hbm, ⟨10, _⟩ => ⟨S32000000, .i1⟩
  | .hbm, ⟨11, _⟩ => ⟨S_, .i32⟩
  | .hbm, ⟨12, _⟩ => ⟨S32000000, .i32⟩
  | .hbm, ⟨13, _⟩ => ⟨S32000000, .i32⟩
  | .hbm, ⟨14, _⟩ => ⟨S32000000, .i32⟩
  | .hbm, ⟨15, _⟩ => ⟨S32000000x1, .i32⟩
  | .hbm, ⟨16, _⟩ => ⟨S32000000x1, .f32⟩
  | .hbm, ⟨17, _⟩ => ⟨S_, .f32⟩
  | .hbm, ⟨18, _⟩ => ⟨S1000000x1, .f32⟩
  | .hbm, ⟨19, _⟩ => ⟨S32000000x1, .i32⟩
  | .hbm, ⟨20, _⟩ => ⟨S1000000x1, .f32⟩
  | .hbm, ⟨21, _⟩ => ⟨S1000000, .f32⟩
  | .hbm, ⟨22, _⟩ => ⟨S_, .i32⟩
  | .hbm, ⟨23, _⟩ => ⟨S_, .f32⟩
  | .hbm, ⟨24, _⟩ => ⟨S1048576, .f32⟩
  | .hbm, ⟨25, _⟩ => ⟨S8192x128, .f32⟩
  | .hbm, ⟨26, _⟩ => ⟨S8192x128, .f32⟩
  | .hbm, ⟨27, _⟩ => ⟨S1048576, .f32⟩
  | .hbm, ⟨28, _⟩ => ⟨S1000000, .f32⟩
  | .hbm, ⟨29, _⟩ => ⟨S1000000x1, .f32⟩
  | .hbm, ⟨30, _⟩ => ⟨S_, .i32⟩
  | .hbm, ⟨31, _⟩ => ⟨S32000000, .i32⟩
  | .hbm, ⟨32, _⟩ => ⟨S32000000, .i1⟩
  | .hbm, ⟨33, _⟩ => ⟨S_, .i32⟩
  | .hbm, ⟨34, _⟩ => ⟨S32000000, .i32⟩
  | .hbm, ⟨35, _⟩ => ⟨S32000000, .i32⟩
  | .hbm, ⟨36, _⟩ => ⟨S32000000, .i32⟩
  | .hbm, ⟨37, _⟩ => ⟨S32000000x1, .i32⟩
  | .hbm, ⟨38, _⟩ => ⟨S32000000x1, .f32⟩
  | .hbm, ⟨39, _⟩ => ⟨S_, .f32⟩
  | .hbm, ⟨40, _⟩ => ⟨S1000000x1, .f32⟩
  | .hbm, ⟨41, _⟩ => ⟨S32000000x1, .i32⟩
  | .hbm, ⟨42, _⟩ => ⟨S1000000x1, .f32⟩
  | .hbm, ⟨43, _⟩ => ⟨S1000000, .f32⟩
  | .hbm, ⟨44, _⟩ => ⟨S_, .i32⟩
  | .hbm, ⟨45, _⟩ => ⟨S_, .f32⟩
  | .hbm, ⟨46, _⟩ => ⟨S1048576, .f32⟩
  | .hbm, ⟨47, _⟩ => ⟨S8192x128, .f32⟩
  | .hbm, ⟨48, _⟩ => ⟨S8192x128, .f32⟩
  | .hbm, ⟨49, _⟩ => ⟨S1048576, .f32⟩
  | .hbm, ⟨50, _⟩ => ⟨S1000000, .f32⟩
  | .hbm, ⟨51, _⟩ => ⟨S1000000x1, .f32⟩
  | .local _ .vmem, ⟨0, _⟩ => ⟨S1024x128, .f32⟩
  | .local _ .vmem, ⟨1, _⟩ => ⟨S1024x128, .f32⟩
  | .local _ .vmem, ⟨2, _⟩ => ⟨S1x1, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1x1, .f32⟩
  | .local _ .vmem, ⟨8, _⟩ => ⟨S1024x128, .f32⟩
  | .local _ .vmem, ⟨9, _⟩ => ⟨S1024x128, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_call1_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x32000000_S1x32000000_0_0 : S2x32000000.Slices ![0, 0] S1x32000000
  shapeCasts_S1x32000000_S32000000 : S1x32000000.ShapeCasts S32000000
  slices_S2x32000000_S1x32000000_1_0 : S2x32000000.Slices ![1, 0] S1x32000000
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S_S1000000x1 : S_.BroadcastsInDim S1000000x1 (![] : Fin 0 → Fin S1000000x1.rank)
  shapeCasts_S1000000x1_S1000000 : S1000000x1.ShapeCasts S1000000
  pads_S1000000_S1048576_0485760 : S1000000.Pads (![0] : Fin 1 → Nat) ![48576] ![0] S1048576
  h_S_ : 0 < S_.numel
  shapeCasts_S1048576_S8192x128 : S1048576.ShapeCasts S8192x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S8192x128_S1048576 : S8192x128.ShapeCasts S1048576
  slices_S1048576_S1000000_0 : S1048576.Slices ![0] S1000000
  shapeCasts_S1000000_S1000000x1 : S1000000.ShapeCasts S1000000x1
  gather_S1000000x1_S32000000x1_S32000000x1_1_0_n_n_0_1_11_wf : GatherDims.WF S1000000x1 S32000000x1 S32000000x1 [1] [0] [] [0] [] 1 ![1, 1]
  scatter_S1000000x1_S32000000x1_S32000000x1_1_0_0_1_wf : ScatterDims.WF S1000000x1 S32000000x1 S32000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)

variable [Facts₀]

def gather_S1000000x1_S32000000x1_S32000000x1_1_0_n_n_0_1_11 : GatherDims S1000000x1 S32000000x1 S32000000x1 where
  offsetDims := [1]
  collapsedSliceDims := [0]
  operandBatchingDims := []
  startIndicesBatchingDims := []
  startIndexMap := [0]
  indexVectorDim := 1
  sliceSizes := ![1, 1]
  wf := gather_S1000000x1_S32000000x1_S32000000x1_1_0_n_n_0_1_11_wf
def scatter_S1000000x1_S32000000x1_S32000000x1_1_0_0_1 : ScatterDims S1000000x1 S32000000x1 S32000000x1 where
  updateWindowDims := [1]
  insertedWindowDims := [0]
  scatterDimsToOperandDims := [0]
  indexVectorDim := 1
  wf := scatter_S1000000x1_S32000000x1_S32000000x1_1_0_0_1_wf

abbrev win0_0 : Pipeline.Window sig grid0 :=
  Pipeline.Window.ofSpec (Memref.whole main_v16) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1000000x1 : Shape := ⟨2, ![1000000, 1]⟩
abbrev S2x32000000 : Shape := ⟨2, ![2, 32000000]⟩
abbrev S1x1 : Shape := ⟨2, ![1, 1]⟩
abbrev S1x32000000 : Shape := ⟨2, ![1, 32000000]⟩
abbrev S32000000 : Shape := ⟨1, ![32000000]⟩
abbrev S_ : Shape := ⟨0, ![]⟩
abbrev S32000000x1 : Shape := ⟨2, ![32000000, 1]⟩

abbrev nBuf : Space → Nat
  | .hbm => 53
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S2x32000000, .i32⟩
  | .hbm, ⟨2, _⟩ => ⟨S1x1, .f32⟩
  | .hbm, ⟨3, _⟩ => ⟨S1x1, .f32⟩
  | .hbm, ⟨4, _⟩ => ⟨S1x32000000, .i32⟩
  | .hbm, ⟨5, _⟩ => ⟨S32000000, .i32⟩
  | .hbm, ⟨6, _⟩ => ⟨S1x32000000, .i32⟩
  | .hbm, ⟨7, _⟩ => ⟨S32000000, .i32⟩
  | .hbm, ⟨8, _⟩ => ⟨S_, .i32⟩
  | .hbm, ⟨9, _⟩ => ⟨S32000000, .i32⟩
  | .hbm, ⟨10, _⟩ => ⟨S32000000, .i1⟩
  | .hbm, ⟨11, _⟩ => ⟨S_, .i32⟩
  | .hbm, ⟨12, _⟩ => ⟨S32000000, .i32⟩
  | .hbm, ⟨13, _⟩ => ⟨S32000000, .i32⟩
  | .hbm, ⟨14, _⟩ => ⟨S32000000, .i32⟩
  | .hbm, ⟨15, _⟩ => ⟨S32000000x1, .i32⟩
  | .hbm, ⟨16, _⟩ => ⟨S32000000x1, .f32⟩
  | .hbm, ⟨17, _⟩ => ⟨S_, .f32⟩
  | .hbm, ⟨18, _⟩ => ⟨S1000000x1, .f32⟩
  | .hbm, ⟨19, _⟩ => ⟨S32000000x1, .i32⟩
  | .hbm, ⟨20, _⟩ => ⟨S1000000x1, .f32⟩
  | .hbm, ⟨21, _⟩ => ⟨S1000000x1, .f32⟩
  | .hbm, ⟨22, _⟩ => ⟨S_, .f32⟩
  | .hbm, ⟨23, _⟩ => ⟨S1000000x1, .f32⟩
  | .hbm, ⟨24, _⟩ => ⟨S1000000x1, .f32⟩
  | .hbm, ⟨25, _⟩ => ⟨S_, .i32⟩
  | .hbm, ⟨26, _⟩ => ⟨S32000000, .i32⟩
  | .hbm, ⟨27, _⟩ => ⟨S32000000, .i1⟩
  | .hbm, ⟨28, _⟩ => ⟨S_, .i32⟩
  | .hbm, ⟨29, _⟩ => ⟨S32000000, .i32⟩
  | .hbm, ⟨30, _⟩ => ⟨S32000000, .i32⟩
  | .hbm, ⟨31, _⟩ => ⟨S32000000, .i32⟩
  | .hbm, ⟨32, _⟩ => ⟨S32000000x1, .i32⟩
  | .hbm, ⟨33, _⟩ => ⟨S32000000x1, .f32⟩
  | .hbm, ⟨34, _⟩ => ⟨S_, .f32⟩
  | .hbm, ⟨35, _⟩ => ⟨S1000000x1, .f32⟩
  | .hbm, ⟨36, _⟩ => ⟨S32000000x1, .i32⟩
  | .hbm, ⟨37, _⟩ => ⟨S1000000x1, .f32⟩
  | .hbm, ⟨38, _⟩ => ⟨S1000000x1, .f32⟩
  | .hbm, ⟨39, _⟩ => ⟨S_, .f32⟩
  | .hbm, ⟨40, _⟩ => ⟨S1000000x1, .f32⟩
  | .hbm, ⟨41, _⟩ => ⟨S1000000x1, .f32⟩
  | .hbm, ⟨42, _⟩ => ⟨S_, .f32⟩
  | .hbm, ⟨43, _⟩ => ⟨S1000000x1, .f32⟩
  | .hbm, ⟨44, _⟩ => ⟨S1000000x1, .f32⟩
  | .hbm, ⟨45, _⟩ => ⟨S1000000x1, .f32⟩
  | .hbm, ⟨46, _⟩ => ⟨S1000000x1, .f32⟩
  | .hbm, ⟨47, _⟩ => ⟨S_, .f32⟩
  | .hbm, ⟨48, _⟩ => ⟨S1000000x1, .f32⟩
  | .hbm, ⟨49, _⟩ => ⟨S1000000x1, .f32⟩
  | .hbm, ⟨50, _⟩ => ⟨S_, .f32⟩
  | .hbm, ⟨51, _⟩ => ⟨S1000000x1, .f32⟩
  | .hbm, ⟨52, _⟩ => ⟨S1000000x1, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_cst : Ref sig .tc := ⟨.hbm, 39, rfl⟩
abbrev main_call1_v0 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  slices_S2x32000000_S1x32000000_0_0 : S2x32000000.Slices ![0, 0] S1x32000000
  shapeCasts_S1x32000000_S32000000 : S1x32000000.ShapeCasts S32000000
  slices_S2x32000000_S1x32000000_1_0 : S2x32000000.Slices ![1, 0] S1x32000000
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S_S1000000x1 : S_.BroadcastsInDim S1000000x1 (![] : Fin 0 → Fin S1000000x1.rank)
  gather_S1000000x1_S32000000x1_S32000000x1_1_0_n_n_0_1_11_wf : GatherDims.WF S1000000x1 S32000000x1 S32000000x1 [1] [0] [] [0] [] 1 ![1, 1]
  scatter_S1000000x1_S32000000x1_S32000000x1_1_0_0_1_wf : ScatterDims.WF S1000000x1 S32000000x1 S32000000x1 [1] [0] [0] 1
  dot_S1000000x1_S1x1_S1000000x1_1_0_0_1_n_n_wf : DotDims.WF S1000000x1 S1x1 S1000000x1 [1] [0] [0] [1] [] []

variable [Facts₀]

def gather_S1000000x1_S32000000x1_S32000000x1_1_0_n_n_0_1_11 : GatherDims S1000000x1 S32000000x1 S32000000x1 where
  offsetDims := [1]
  collapsedSliceDims := [0]
  operandBatchingDims := []
  startIndicesBatchingDims := []
  startIndexMap := [0]
  indexVectorDim := 1
  sliceSizes := ![1, 1]
  wf := gather_S1000000x1_S32000000x1_S32000000x1_1_0_n_n_0_1_11_wf
def scatter_S1000000x1_S32000000x1_S32000000x1_1_0_0_1 : ScatterDims S1000000x1 S32000000x1 S32000000x1 where
  updateWindowDims := [1]
  insertedWindowDims := [0]
  scatterDimsToOperandDims := [0]
  indexVectorDim := 1
  wf := scatter_S1000000x1_S32000000x1_S32000000x1_1_0_0_1_wf
def dot_S1000000x1_S1x1_S1000000x1_1_0_0_1_n_n : DotDims S1000000x1 S1x1 S1000000x1 where
  lhsContracting := [1]
  rhsContracting := [0]
  lhsNonContracting := [0]
  rhsNonContracting := [1]
  lhsBatch := []
  rhsBatch := []
  wf := dot_S1000000x1_S1x1_S1000000x1_1_0_0_1_n_n_wf

class Facts : Prop extends Facts₀ where

variable [Facts]
-- ==== Proof.KernelRun.lean ====
import proofs.«112507_j85856396248062_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer holding what the fold of
    the host stretches and the two launches leaves there (the contents after the last stretch, read at the result),
    and the four arguments as launched. -/
theorem run : θ_run defs (onTc (τ := τ) (main (F := F))) ⟨m, fun _ => 0, ρ⟩ (fun r => ∀ c : Dev nD,
      r.2.mem ((c.tc : Thread nD τ).loc main_v37) = W9 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v37 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.KernelIdeal.RunValue

end
-- ==== Proof.RegionValue.lean ====
import proofs.«112507_j85856396248062_1_alg».proof.Proof.Gen.KernelIdeal.Frame
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]

/-- The offsets of a load or store of a whole staging buffer are all zero. -/
theorem zero2 : (![0, 0] : Fin 2 → Nat) = fun _ => 0 := funext fun a => by fin_cases a <;> rfl

/-- The one entry of the weight matrix, as the body extracts it. -/
theorem extract00 (w : Vec F S1x1 .f32) : extractAt ![0, 0] w inpos_S1x1_p0_0 = w (ix2 0 0) :=
  congrArg w (funext fun a => Fin.ext (by match a with | ⟨0, _⟩ => rfl | ⟨1, _⟩ => rfl))

/-- One entry of a layer before the sigmoid: the aggregated message times the weight, clipped below at zero. -/
def lin (a w : F .f32) : F .f32 := FloatOps.maximumf (FloatOps.mulf a w) (Scalar.ofBits .f32 0x00000000#32)

/-- One entry of the last layer: the sigmoid of the clipped product. -/
def linSig (a w : F .f32) : F .f32 := FloatOps.logistic (lin a w)

/-- The first layer on the whole padded table [8192, 128]: every entry times the one weight, clipped at zero. -/
def layer0 (A : S8192x128.Idx → F .f32) (W : S1x1.Idx → F .f32) : S8192x128.Idx → F .f32 :=
  fun i => lin (A i) (W (ix2 0 0))

/-- The second layer on the whole padded table: the same, followed by the sigmoid. -/
def layer1 (A : S8192x128.Idx → F .f32) (W : S1x1.Idx → F .f32) : S8192x128.Idx → F .f32 :=
  fun i => linSig (A i) (W (ix2 0 0))

/-! ## Region 0: what the launch leaves in its output table -/

section Region0
variable (V : (c : Dev nD) → (b : Ref sig .tc) → Buf (Elt F) ((c : Thread nD τ).loc b))

/-- The body's stored value, entry by entry, of the block of messages and the one weight it loaded. -/
theorem pay0_eq (w : Vec F S1x1 .f32) (x : Vec F S1024x128 .f32) :
    k0_pay1 w x = fun j => lin (x j) (w (ix2 0 0)) := by
  unfold k0_pay1
  funext j
  rw [shapeCast_self]
  show FloatOps.maximumf (FloatOps.mulf (x j) (extractAt ![0, 0] w inpos_S1x1_p0_0)) (Scalar.ofBits .f32 0x00000000#32) = _
  rw [extract00]
  rfl

/-- The printed index maps over the grid: the message block and the result block move together down the rows,
    one block of 1024 rows per point, and the weight's block stays put. -/
theorem idx_facts0 : ∀ t : Fin cfg0.N, win0_0.index t (0 : Fin 2) = win0_2.index t (0 : Fin 2)
    ∧ win0_0.index t (1 : Fin 2) = win0_2.index t (1 : Fin 2)
    ∧ win0_1.index t (0 : Fin 2) = 0 ∧ win0_1.index t (1 : Fin 2) = 0
    ∧ win0_2.index t (0 : Fin 2) ≤ 7 ∧ win0_2.index t (1 : Fin 2) = 0 :=
  (by decide +kernel : ∀ t : Fin grid0.N, _)

/-- Every one of the eight row blocks is some point's. -/
theorem idx_onto0 : ∀ q : Fin 8, ∃ t : Fin cfg0.N, win0_2.index t = ![q.val, 0] :=
  (by decide +kernel : ∀ q : Fin 8, ∃ t : Fin grid0.N, win0_2.index t = ![q.val, 0])

/-- What point `t` writes back is block `t` of the layer applied to the whole padded table. -/
theorem flushed0_eq (c : Dev nD) (t : Fin cfg0.N) :
    (dat0 V c).flushed 2 t = ((cfg0.win 2).blk t).view.read (Elt F) (layer0 (V c main_v16) (V c main_arg2)) := by
  show (cfg0.win 2).cut (grid0.coords t) ((dat0 V c).after 2 t) = _
  rw [after0_2]
  unfold out0_2
  rw [View.canon_unit_zero zero2]
  simp only [View.ld_unit_zero (S := S1024x128) zero2, View.ld_unit_zero (S := S1x1) zero2]
  rw [pay0_eq]
  obtain ⟨e0, e1, e2, e3, e4, e5⟩ := idx_facts0 t
  funext j
  show lin (V c main_v16 (((cfg0.win 0).blk t).view.emb j)) (V c main_arg2 (((cfg0.win 1).blk t).view.emb (ix2 0 0)))
    = lin (V c main_v16 (((cfg0.win 2).blk t).view.emb j)) (V c main_arg2 (ix2 0 0))
  have h0 : ((cfg0.win 0).blk t).view.emb j = ((cfg0.win 2).blk t).view.emb j := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (ix2 (0 : Fin 1) (0 : Fin 1)) = ix2 (0 : Fin 1) (0 : Fin 1) := by
    funext a; apply Fin.ext
    match a with
    | ⟨0, _⟩ => show win0_1.index t (0 : Fin 2) * 1 + 1 * 0 = 0; omega
    | ⟨1, _⟩ => show win0_1.index t (1 : Fin 2) * 1 + 1 * 0 = 0; omega
  rw [h0, h1]

/-- An index of the table is in point `t`'s block iff each coordinate is in the block's range on its axis. -/
theorem mem_blk0 (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v17).slice (win0_2.rect t)).set ↔ _
  rw [View.set_slice_whole, Rect.mem_set_unit]
  exact Iff.rfl

/-- The eight blocks tile the table: row `r` is in block `r / 1024`. -/
theorem cover0 (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  obtain ⟨t, ht⟩ := idx_onto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- The output table after the launch: the layer applied to the whole padded table of messages as the launch found it. -/
theorem final0 (c : Dev nD) : (dat0 V c).arrAt 2 cfg0.N = layer0 (V c main_v16) (V c main_arg2) :=
  (dat0 V c).arrAt_eq_of_cover 2 _ (fun t _ => flushed0_eq V c t) (cover0)

end Region0

/-! ## Region 1: what the launch leaves in its output table -/

section Region1
variable (V : (c : Dev nD) → (b : Ref sig .tc) → Buf (Elt F) ((c : Thread nD τ).loc b))

/-- The body's stored value, entry by entry, of the block of messages and the one weight it loaded. -/
theorem pay1_eq (w : Vec F S1x1 .f32) (x : Vec F S1024x128 .f32) :
    k1_pay1 w x = fun j => linSig (x j) (w (ix2 0 0)) := by
  unfold k1_pay1
  funext j
  rw [shapeCast_self]
  show FloatOps.logistic (FloatOps.maximumf (FloatOps.mulf (x j) (extractAt ![0, 0] w inpos_S1x1_p0_0)) (Scalar.ofBits .f32 0x00000000#32)) = _
  rw [extract00]
  rfl

/-- The printed index maps over the grid: the message block and the result block move together down the rows,
    one block of 1024 rows per point, and the weight's block stays put. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) ≤ 7 ∧ win1_2.index t (1 : Fin 2) = 0 :=
  (by decide +kernel : ∀ t : Fin grid1.N, _)

/-- Every one of the eight row blocks is some point's. -/
theorem idx_onto1 : ∀ q : Fin 8, ∃ t : Fin cfg1.N, win1_2.index t = ![q.val, 0] :=
  (by decide +kernel : ∀ q : Fin 8, ∃ t : Fin grid1.N, win1_2.index t = ![q.val, 0])

/-- What point `t` writes back is block `t` of the layer applied to the whole padded table. -/
theorem flushed1_eq (c : Dev nD) (t : Fin cfg1.N) :
    (dat1 V c).flushed 2 t = ((cfg1.win 2).blk t).view.read (Elt F) (layer1 (V c main_v33) (V c main_arg3)) := by
  show (cfg1.win 2).cut (grid1.coords t) ((dat1 V c).after 2 t) = _
  rw [after1_2]
  unfold out1_2
  rw [View.canon_unit_zero zero2]
  simp only [View.ld_unit_zero (S := S1024x128) zero2, View.ld_unit_zero (S := S1x1) zero2]
  rw [pay1_eq]
  obtain ⟨e0, e1, e2, e3, e4, e5⟩ := idx_facts1 t
  funext j
  show linSig (V c main_v33 (((cfg1.win 0).blk t).view.emb j)) (V c main_arg3 (((cfg1.win 1).blk t).view.emb (ix2 0 0)))
    = linSig (V c main_v33 (((cfg1.win 2).blk t).view.emb j)) (V c main_arg3 (ix2 0 0))
  have h0 : ((cfg1.win 0).blk t).view.emb j = ((cfg1.win 2).blk t).view.emb j := by
    funext a; apply Fin.ext
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) (0 : Fin 1)) = ix2 (0 : Fin 1) (0 : Fin 1) := by
    funext a; apply Fin.ext
    match a with
    | ⟨0, _⟩ => show win1_1.index t (0 : Fin 2) * 1 + 1 * 0 = 0; omega
    | ⟨1, _⟩ => show win1_1.index t (1 : Fin 2) * 1 + 1 * 0 = 0; omega
  rw [h0, h1]

/-- An index of the table is in point `t`'s block iff each coordinate is in the block's range on its axis. -/
theorem mem_blk1 (t : Fin cfg1.N) (i : S8192x128.Idx) :
    i ∈ ((cfg1.win 2).blk t).view.set ↔ ∀ a : Fin 2, win1_2.index t a * S1024x128.size a ≤ (i a).val ∧ (i a).val < win1_2.index t a * S1024x128.size a + S1024x128.size a := by
  show i ∈ ((View.whole main_v34).slice (win1_2.rect t)).set ↔ _
  rw [View.set_slice_whole, Rect.mem_set_unit]
  exact Iff.rfl

/-- The eight blocks tile the table: row `r` is in block `r / 1024`. -/
theorem cover1 (i : S8192x128.Idx) :
    ∃ t : Fin cfg1.N, (cfg1.win 2).flush t = true ∧ i ∈ ((cfg1.win 2).blk t).view.set := by
  have hi0 : (i 0).val < 8192 := (i 0).isLt
  have hi1 : (i 1).val < 128 := (i 1).isLt
  obtain ⟨t, ht⟩ := idx_onto1 ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 128 ≤ (i 1).val ∧ (i 1).val < win1_2.index t (1 : Fin 2) * 128 + 128; omega

/-- The output table after the launch: the layer applied to the whole padded table of messages as the launch found it. -/
theorem final1 (c : Dev nD) : (dat1 V c).arrAt 2 cfg1.N = layer1 (V c main_v33) (V c main_arg3) :=
  (dat1 V c).arrAt_eq_of_cover 2 _ (fun t _ => flushed1_eq V c t) (cover1)

end Region1

end Cert.KernelIdeal.RegionValue

end
-- ==== Proof.Layout.lean ====
import proofs.«112507_j85856396248062_1_alg».proof.KernelIdeal
import Idealize.ShloMosaic.Lib.Pipeline.Value
import Idealize.ShloMosaic.Lib.ValueIdx
import Idealize.ShloMosaic.Lib.KernelVsHost

noncomputable section

namespace Cert.KernelIdeal.Layout

open Cert.KernelIdeal
open Idealize.ShloMosaic Idealize.ShloMosaic.ValueIdx

variable {α : Type}

/-- Node `n` of the column [1000000, 1] sits, in the lane-dense table [8192, 128] the flattened and padded column is
    reshaped to, at row `n / 128` and lane `n % 128`. -/
abbrev cell (n : Fin 1000000) : S8192x128.Idx :=
  ix2 (⟨n.val / 128, by have := n.isLt; omega⟩ : Fin 8192) (⟨n.val % 128, by have := n.isLt; omega⟩ : Fin 128)

/-- The table read back as a column: flatten the table, keep the first 1000000 entries, make them a column.
    Node `n`'s entry is the table's at its cell. -/
theorem column_of_table (y : S8192x128.Idx → α) (h3 : S8192x128.ShapeCasts S1048576) (hs : S1048576.Slices ![0] S1000000)
    (h4 : S1000000.ShapeCasts S1000000x1) (i : S1000000x1.Idx) :
    shapeCast S1000000x1 (extractStridedSlice S1000000 ![0] (shapeCast S1048576 y h3) hs) h4 i = y (cell (i 0)) := by
  have hi0 : (i 0).val < 1000000 := (i 0).isLt
  have hi1 : (i 1).val < 1 := (i 1).isLt
  refine (shapeCast_apply _ h4 i (ix1 (i 0)) ?_).trans ?_
  · rw [Shape.rowMajor_val_one, Shape.rowMajor_val_two]
    show (i 0).val = (i 0).val * 1 + (i 1).val
    omega
  refine (extractStridedSlice_apply ![0] _ hs (ix1 (i 0)) (ix1 (⟨(i 0).val, by omega⟩ : Fin 1048576)) ?_).trans ?_
  · intro a
    match a with
    | ⟨0, _⟩ => show (i 0).val = 0 + (i 0).val; omega
  refine shapeCast_apply y h3 (ix1 (⟨(i 0).val, by omega⟩ : Fin 1048576)) (cell (i 0)) ?_
  rw [Shape.rowMajor_val_two, Shape.rowMajor_val_one]
  show (i 0).val / 128 * 128 + (i 0).val % 128 = (i 0).val
  omega

/-- The column made a table: flatten the column, pad it at the end up to 1048576 entries, reshape to [8192, 128].
    At node `n`'s cell the table holds node `n`'s entry (the padding value is never met there). -/
theorem table_of_column (a : S1000000x1.Idx → α) (z : S_.Idx → α) (h1 : S1000000x1.ShapeCasts S1000000)
    (hp : S1000000.Pads ![0] ![48576] ![0] S1048576) (hu : 0 < S_.numel) (h2 : S1048576.ShapeCasts S8192x128)
    (i : S1000000x1.Idx) :
    shapeCast S8192x128 (pad S1048576 ![0] ![48576] ![0] (shapeCast S1000000 a h1) z hp hu) h2 (cell (i 0)) = a i := by
  have hi0 : (i 0).val < 1000000 := (i 0).isLt
  have hi1 : (i 1).val < 1 := (i 1).isLt
  refine (shapeCast_apply _ h2 (cell (i 0)) (ix1 (⟨(i 0).val, by omega⟩ : Fin 1048576)) ?_).trans ?_
  · rw [Shape.rowMajor_val_one, Shape.rowMajor_val_two]
    show (i 0).val = (i 0).val / 128 * 128 + (i 0).val % 128
    omega
  refine (pad_apply_of_inside ![0] ![48576] ![0] _ z hp hu (ix1 (⟨(i 0).val, by omega⟩ : Fin 1048576)) (ix1 (i 0)) ?_).trans ?_
  · intro b
    match b with
    | ⟨0, _⟩ => show (i 0).val = 0 + (i 0).val * (0 + 1); omega
  refine shapeCast_apply a h1 (ix1 (i 0)) i ?_
  rw [Shape.rowMajor_val_two, Shape.rowMajor_val_one]
  show (i 0).val * 1 + (i 1).val = (i 0).val
  omega

/-- The round trip: a map applied entry by entry to the table made of a column, read back as a column, is the map
    applied entry by entry to the column. -/
theorem column_of_map_table {β : Type} (g : α → β) (a : S1000000x1.Idx → α) (z : S_.Idx → α) (h1 : S1000000x1.ShapeCasts S1000000)
    (hp : S1000000.Pads ![0] ![48576] ![0] S1048576) (hu : 0 < S_.numel) (h2 : S1048576.ShapeCasts S8192x128)
    (h3 : S8192x128.ShapeCasts S1048576) (hs : S1048576.Slices ![0] S1000000) (h4 : S1000000.ShapeCasts S1000000x1) :
    shapeCast S1000000x1 (extractStridedSlice S1000000 ![0]
        (shapeCast S1048576 (fun k => g (shapeCast S8192x128 (pad S1048576 ![0] ![48576] ![0] (shapeCast S1000000 a h1) z hp hu) h2 k)) h3) hs) h4
      = fun i => g (a i) := by
  funext i
  rw [column_of_table, table_of_column]

end Cert.KernelIdeal.Layout

end
-- ==== Proof.HostValue.lean ====
import proofs.«112507_j85856396248062_1_alg».proof.Proof.Gen.KernelIdeal.Frame
import proofs.«112507_j85856396248062_1_alg».proof.Proof.RegionValue
import proofs.«112507_j85856396248062_1_alg».proof.Proof.Layout
import Idealize.ShloMosaic.Lib.StableHlo.Run

set_option maxRecDepth 16384

noncomputable section

namespace Cert.KernelIdeal.HostValue

open Cert.KernelIdeal Cert.KernelIdeal.Gen Cert.KernelIdeal.RegionValue
open Idealize.ShloMosaic Idealize.ShloMosaic.TcCoe Idealize.ShloMosaic.ValueIdx Idealize.ShloMosaic.StableHlo
open Idealize.SL Idealize.SL.Sem

variable {F : FTy → Type} [FloatOps F]

/-! ## The host's pure stages, named -/

/-- The edges' source nodes: row 0 of the edge list, as a vector. -/
def srcOf (e : IVec S2x32000000 32) : IVec S32000000 32 :=
  shapeCast S32000000 (extractStridedSlice S1x32000000 ![0, 0] e slices_S2x32000000_S1x32000000_0_0) shapeCasts_S1x32000000_S32000000

/-- The edges' destination nodes: row 1 of the edge list, as a vector. -/
def dstOf (e : IVec S2x32000000 32) : IVec S32000000 32 :=
  shapeCast S32000000 (extractStridedSlice S1x32000000 ![1, 0] e slices_S2x32000000_S1x32000000_1_0) shapeCasts_S1x32000000_S32000000

/-- One round of message passing: every edge carries its source node's feature (a negative source index counted
    from the end) and every node sums what arrives over the edges that end at it, from zero. -/
def agg (f : FVec F S1000000x1 .f32) (s d : IVec S32000000 32) : FVec F S1000000x1 .f32 :=
  Host.scatterAdd scatter_S1000000x1_S32000000x1_S32000000x1_1_0_0_1
    (broadcastInDim S1000000x1 ![] bcast_S_S1000000x1 (constant S_ .f32 0x00000000#32))
    (broadcastInDim S32000000x1 ![0] bcast_S32000000_S32000000x1_0 d)
    (Host.gather gather_S1000000x1_S32000000x1_S32000000x1_1_0_n_n_0_1_11 f
      (broadcastInDim S32000000x1 ![0] bcast_S32000000_S32000000x1_0
        (select (cmpi .slt s (broadcastInDim S32000000 ![] bcast_S_S32000000 (constantI S_ 32 0#32)))
          (addi s (broadcastInDim S32000000 ![] bcast_S_S32000000 (constantI S_ 32 1000000#32))) s)))

/-- A column of node features laid out as the lane-dense table the launch reads: flattened, padded at the end with
    the integer zero converted to a float, reshaped to [8192, 128]. -/
def toTable (a : FVec F S1000000x1 .f32) : FVec F S8192x128 .f32 :=
  shapeCast S8192x128 (pad S1048576 ![0] ![48576] ![0] (shapeCast S1000000 a shapeCasts_S1000000x1_S1000000)
    (sitofp (F := F) .f32 (constantI S_ 32 0#32)) pads_S1000000_S1048576_0485760 h_S_) shapeCasts_S1048576_S8192x128

/-- The table a launch wrote, read back as a column of node features: flattened, cut to the first 1000000 entries,
    made a column. -/
def ofTable (y : FVec F S8192x128 .f32) : FVec F S1000000x1 .f32 :=
  shapeCast S1000000x1 (extractStridedSlice S1000000 ![0] (shapeCast S1048576 y shapeCasts_S8192x128_S1048576)
    slices_S1048576_S1000000_0) shapeCasts_S1000000_S1000000x1

variable (m : (ℓ : Loc nD τ sig) → Buf (Elt F) ℓ) (ρ : Dev nD → PrngReg)

/-! ## The contents at the first launch's entry -/

set_option maxHeartbeats 1000000 in
theorem entry0_table (c : Dev nD) :
    V3 m ρ c main_v16 = toTable (agg (m ((c : Thread nD τ).loc main_arg0))
      (srcOf (m ((c : Thread nD τ).loc main_arg1))) (dstOf (m ((c : Thread nD τ).loc main_arg1)))) := by
  show StableHlo.after hostOps0_2 (StableHlo.after hostOps0_1 (StableHlo.after hostOps0 (W0 m ρ c))) (Proc.devRef .tc main_v16) = _
  after_results_simp
  rfl

theorem entry0_weight (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results

theorem entry0_src (c : Dev nD) : W3 m ρ c (Proc.devRef .tc main_v1) = srcOf (m ((c : Thread nD τ).loc main_arg1)) := by
  show StableHlo.after hostOps0_2 (StableHlo.after hostOps0_1 (StableHlo.after hostOps0 (W0 m ρ c))) (Proc.devRef .tc main_v1) = _
  after_results
  rfl

theorem entry0_dst (c : Dev nD) : W3 m ρ c (Proc.devRef .tc main_v3) = dstOf (m ((c : Thread nD τ).loc main_arg1)) := by
  show StableHlo.after hostOps0_2 (StableHlo.after hostOps0_1 (StableHlo.after hostOps0 (W0 m ρ c))) (Proc.devRef .tc main_v3) = _
  after_results
  rfl

theorem entry0_weight2 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results

/-! ## Between the launches -/

/-- The first launch leaves its output table at the first layer of the table it was given. -/
theorem exit0_table (c : Dev nD) :
    W4 m ρ c (Proc.devRef .tc main_v17) = layer0 (V3 m ρ c main_v16) (V3 m ρ c main_arg2) :=
  (W4_arr m ρ c 2).trans (final0 (V3 m ρ) c)

/-- It touches neither the edges' end points nor the second weight. -/
theorem exit0_src (c : Dev nD) : W4 m ρ c (Proc.devRef .tc main_v1) = W3 m ρ c (Proc.devRef .tc main_v1) :=
  W4_of_ne m ρ c main_v1 (by decide)
theorem exit0_dst (c : Dev nD) : W4 m ρ c (Proc.devRef .tc main_v3) = W3 m ρ c (Proc.devRef .tc main_v3) :=
  W4_of_ne m ρ c main_v3 (by decide)
theorem exit0_weight2 (c : Dev nD) : W4 m ρ c (Proc.devRef .tc main_arg3) = W3 m ρ c (Proc.devRef .tc main_arg3) :=
  W4_of_ne m ρ c main_arg3 (by decide)

/-! ## The contents at the second launch's entry -/

set_option maxHeartbeats 1000000 in
theorem entry1_table (c : Dev nD) :
    V7 m ρ c main_v33 = toTable (agg (ofTable (W4 m ρ c (Proc.devRef .tc main_v17)))
      (W4 m ρ c (Proc.devRef .tc main_v1)) (W4 m ρ c (Proc.devRef .tc main_v3))) := by
  show StableHlo.after hostOps1_2 (StableHlo.after hostOps1_1 (StableHlo.after hostOps1 (W4 m ρ c))) (Proc.devRef .tc main_v33) = _
  after_results_simp
  rfl

theorem entry1_weight (c : Dev nD) : V7 m ρ c main_arg3 = W4 m ρ c (Proc.devRef .tc main_arg3) := by
  show StableHlo.after hostOps1_2 (StableHlo.after hostOps1_1 (StableHlo.after hostOps1 (W4 m ρ c))) (Proc.devRef .tc main_arg3) = _
  after_results

/-! ## After the second launch, and the result -/

/-- The second launch leaves its output table at the second layer of the table it was given. -/
theorem exit1_table (c : Dev nD) :
    W8 m ρ c (Proc.devRef .tc main_v34) = layer1 (V7 m ρ c main_v33) (V7 m ρ c main_arg3) :=
  (W8_arr m ρ c 2).trans (final1 (V7 m ρ) c)

/-- The result is that table read back as a column. -/
theorem result_table (c : Dev nD) :
    W9 m ρ c (Proc.devRef .tc main_v37) = ofTable (W8 m ρ c (Proc.devRef .tc main_v34)) := by
  show StableHlo.after hostOps2 (W8 m ρ c) (Proc.devRef .tc main_v37) = _
  after_results
  rfl

/-! ## The layers on columns -/

/-- The first layer on a column of aggregated messages: node by node, times the weight, clipped at zero. -/
def colLin (a : FVec F S1000000x1 .f32) (w : FVec F S1x1 .f32) : FVec F S1000000x1 .f32 :=
  fun i => lin (a i) (w (ix2 0 0))

/-- The second layer on a column: the same followed by the sigmoid. -/
def colSig (a : FVec F S1000000x1 .f32) (w : FVec F S1x1 .f32) : FVec F S1000000x1 .f32 :=
  fun i => linSig (a i) (w (ix2 0 0))

/-- A layer acts entry by entry, so laying the column out as a table, applying it and reading the column back is
    applying it to the column: the padding entries are computed and then cut away. -/
theorem ofTable_layer0_toTable (a : FVec F S1000000x1 .f32) (w : FVec F S1x1 .f32) :
    ofTable (layer0 (toTable a) w) = colLin a w := by
  unfold ofTable layer0 toTable
  exact Layout.column_of_map_table (fun v => lin v (w (ix2 0 0))) a _ _ _ _ _ _ _ _

theorem ofTable_layer1_toTable (a : FVec F S1000000x1 .f32) (w : FVec F S1x1 .f32) :
    ofTable (layer1 (toTable a) w) = colSig a w := by
  unfold ofTable layer1 toTable
  exact Layout.column_of_map_table (fun v => linSig v (w (ix2 0 0))) a _ _ _ _ _ _ _ _

/-- The whole computation on columns: two rounds of message passing, each followed by its layer. -/
def value (x : FVec F S1000000x1 .f32) (e : IVec S2x32000000 32) (w1 w2 : FVec F S1x1 .f32) : FVec F S1000000x1 .f32 :=
  colSig (agg (colLin (agg x (srcOf e) (dstOf e)) w1) (srcOf e) (dstOf e)) w2

/-- What the result buffer holds after the last host stretch: the whole computation of the four arguments. -/
theorem result_eq (c : Dev nD) :
    W9 m ρ c (Proc.devRef .tc main_v37) = value (m ((c : Thread nD τ).loc main_arg0)) (m ((c : Thread nD τ).loc main_arg1))
      (m ((c : Thread nD τ).loc main_arg2)) (m ((c : Thread nD τ).loc main_arg3)) := by
  rw [result_table, exit1_table, entry1_table, entry1_weight, exit0_table, exit0_src, exit0_dst, exit0_weight2,
    entry0_table, entry0_weight, entry0_src, entry0_dst, entry0_weight2, ofTable_layer0_toTable, ofTable_layer1_toTable]
  rfl

end Cert.KernelIdeal.HostValue

end
-- ==== Proof.FloatWords.lean ====
import Idealize.ShloMosaic.PureOps.Ideal

noncomputable section

namespace Cert.FloatWords

open Idealize.ShloMosaic

/-- The word 0x3F800000 — sign 0, biased exponent 127, fraction 0 — is the float one. -/
theorem one_f32 : Ideal.ofBits .f32 0x3F800000#32 = 1 := by
  simp [Ideal.ofBits, Ideal.ieee, -EReal.coe_mul]; norm_num

end Cert.FloatWords

end
-- ==== Proof.RefValue.lean ====
import proofs.«112507_j85856396248062_1_alg».proof.Proof.Gen.ReferenceIdeal.Read
import proofs.«112507_j85856396248062_1_alg».proof.Proof.HostValue
import proofs.«112507_j85856396248062_1_alg».proof.Proof.FloatWords
import Idealize.ShloMosaic.PureOps.Ideal.Laws

noncomputable section

open scoped BigOperators

namespace Cert.ReferenceIdeal.RefValue

open Cert.ReferenceIdeal Cert.ReferenceIdeal.Read
open Idealize.ShloMosaic Idealize.ShloMosaic.ValueIdx
open Cert.KernelIdeal.HostValue (agg srcOf dstOf colLin colSig value)
open Cert.KernelIdeal.RegionValue (lin linSig)

variable (x0 : (⟨S1000000x1, .f32⟩ : BufTy).Contents (Elt Ideal)) (x1 : (⟨S2x32000000, .i32⟩ : BufTy).Contents (Elt Ideal))
  (x2 x3 : (⟨S1x1, .f32⟩ : BufTy).Contents (Elt Ideal))

/-! ## The contraction over the one hidden channel -/

/-- The 1×1 product's sum has one term; its left factor is read at the node's own index, -/
theorem lidx14 (i : S1000000x1.Idx) : lidx_main_v14 i 0 = i := by
  funext a; apply Fin.ext
  match a with
  | ⟨0, _⟩ => rfl
  | ⟨1, _⟩ => show (0 : Nat) = (i 1).val; have h : (i 1).val < 1 := (i 1).isLt; omega

/-- and its right factor is the weight's one entry. -/
theorem ridx14 (i : S1000000x1.Idx) : ridx_main_v14 i 0 = ix2 (0 : Fin 1) (0 : Fin 1) := by
  funext a; apply Fin.ext
  match a with
  | ⟨0, _⟩ => rfl
  | ⟨1, _⟩ => show (i 1).val = 0; have h : (i 1).val < 1 := (i 1).isLt; omega

theorem lidx26 (i : S1000000x1.Idx) : lidx_main_v26 i 0 = i := by
  funext a; apply Fin.ext
  match a with
  | ⟨0, _⟩ => rfl
  | ⟨1, _⟩ => show (0 : Nat) = (i 1).val; have h : (i 1).val < 1 := (i 1).isLt; omega

theorem ridx26 (i : S1000000x1.Idx) : ridx_main_v26 i 0 = ix2 (0 : Fin 1) (0 : Fin 1) := by
  funext a; apply Fin.ext
  match a with
  | ⟨0, _⟩ => rfl
  | ⟨1, _⟩ => show (i 1).val = 0; have h : (i 1).val < 1 := (i 1).isLt; omega

/-! ## The first round -/

/-- The reference's first gather and scatter-add are the kernel program's, operation for operation. -/
theorem agg1_eq : val_main_v13 (F := Ideal) x0 x1 = agg (F := Ideal) x0 (srcOf x1) (dstOf x1) := rfl

/-- The reference's hidden features: at each node the aggregated message times the weight — the matrix product with a
    1×1 weight is that one product — clipped at zero. -/
theorem hidden_eq : val_main_v15 (F := Ideal) x0 x1 x2 = colLin (F := Ideal) (agg (F := Ideal) x0 (srcOf x1) (dstOf x1)) x2 := by
  funext i
  rw [val_main_v15_apply, val_main_v14_apply, val_main_call0_v0_apply, val_main_call0_cst_apply, Fin.sum_univ_one,
    lidx14, ridx14, agg1_eq]
  rfl

/-! ## The second round and the sigmoid -/

theorem agg2_eq : val_main_v25 (F := Ideal) x0 x1 x2
    = agg (F := Ideal) (val_main_v15 (F := Ideal) x0 x1 x2) (srcOf x1) (dstOf x1) := rfl

/-- The reference's spelling of the sigmoid, 1 / (1 + exp (-(h - 0))), is the logistic function of `h` on every
    extended real: subtracting zero changes nothing, at the infinities too. -/
theorem sigmoid_eq (h : EReal) :
    Ideal.div (Ideal.ofBits .f32 0x3F800000#32)
      (Ideal.ofBits .f32 0x3F800000#32 + Ideal.exp (-(h - Ideal.ofBits .f32 0x00000000#32))) = Ideal.logistic h := by
  rw [Cert.FloatWords.one_f32, Ideal.ofBits_zero_f32, sub_zero]
  rfl

/-- The reference's result is the whole computation on columns. -/
theorem result_eq : val_main_v35 (F := Ideal) x0 x1 x2 x3 = value (F := Ideal) x0 x1 x2 x3 := by
  funext i
  rw [val_main_v35_apply, val_main_v34_apply, val_main_cst_6_apply, val_main_v33_apply, val_main_v32_apply,
    val_main_cst_5_apply, val_main_v31_apply, val_main_v30_apply, val_main_v29_apply, val_main_v28_apply,
    val_main_cst_4_apply, val_main_v27_apply, val_main_v26_apply, val_main_call1_v0_apply, val_main_call1_cst_apply,
    Fin.sum_univ_one, lidx26, ridx26, agg2_eq, hidden_eq]
  simp only [value, colSig, linSig, lin, Ideal.hostDivf_def, Ideal.ofBits_def, Ideal.addf_def, Ideal.hostUnary_exp_def,
    Ideal.hostNegf_def, Ideal.negf_def, Ideal.subf_def, Ideal.maximumf_def, Ideal.mulf_def, Ideal.logistic_def]
  exact sigmoid_eq _

end Cert.ReferenceIdeal.RefValue

end
-- ==== Proof.lean ====
/- Two rounds of message passing over a graph with one hidden channel, each followed by a 1×1 linear layer and a
   clip at zero, then a sigmoid. The kernel program gathers and scatter-adds on the host exactly as the reference does
   and runs the linear layer in two launches over the node column laid out as a lane-dense table [8192, 128] (flattened,
   padded at the end, reshaped; read back by the inverse steps). On the extended reals the two programs agree entry by
   entry: a layer acts on each entry alone, so the layout round trip drops out; the reference's product with a 1×1
   matrix is a sum of one term, the kernel's scalar product; and the reference's 1 / (1 + exp (-(h - 0))) is the
   logistic function the kernel applies. No step needs the inputs finite.
   Modules: KernelRun (the kernel program's run with the result buffer named), RegionValue (what each launch leaves in
   its output table), Layout (the column/table round trip), HostValue (the host stretches composed, and the whole
   computation on columns), RefValue (the reference's run read as the same computation). -/
import proofs.«112507_j85856396248062_1_alg».proof.Defs
import proofs.«112507_j85856396248062_1_alg».proof.Proof.Gen.Kernel
import proofs.«112507_j85856396248062_1_alg».proof.Proof.Gen.Kernel.Skeleton
import proofs.«112507_j85856396248062_1_alg».proof.Proof.Gen.Kernel.Launch
import proofs.«112507_j85856396248062_1_alg».proof.Proof.Gen.Kernel.Points
import proofs.«112507_j85856396248062_1_alg».proof.Proof.Gen.Kernel.Frame
import proofs.«112507_j85856396248062_1_alg».proof.Proof.Gen.KernelIdeal
import proofs.«112507_j85856396248062_1_alg».proof.Proof.Gen.KernelIdeal.Skeleton
import proofs.«112507_j85856396248062_1_alg».proof.Proof.Gen.KernelIdeal.Launch
import proofs.«112507_j85856396248062_1_alg».proof.Proof.Gen.KernelIdeal.Points
import proofs.«112507_j85856396248062_1_alg».proof.Proof.Gen.KernelIdeal.Frame
import proofs.«112507_j85856396248062_1_alg».proof.Proof.Gen.ReferenceIdeal
import proofs.«112507_j85856396248062_1_alg».proof.Proof.Gen.ReferenceIdeal.Run
import proofs.«112507_j85856396248062_1_alg».proof.Proof.Gen.ReferenceIdeal.Read
import proofs.«112507_j85856396248062_1_alg».proof.Proof.Gen.Pre_finite_inputs
import proofs.«112507_j85856396248062_1_alg».proof.Proof.KernelRun
import proofs.«112507_j85856396248062_1_alg».proof.Proof.HostValue
import proofs.«112507_j85856396248062_1_alg».proof.Proof.RefValue
import Idealize.ShloMosaic.Adequacy
import Idealize.ShloMosaic.Init

noncomputable section

namespace Cert.Proof

open Idealize.ShloMosaic Idealize.ShloMosaic.TcCoe Idealize.SL.Sem

/-- The three programs run and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at the whole computation on columns of the (agreeing) arguments. -/
theorem algebraic : Cert.algebraic_KernelIdeal_ReferenceIdeal := by
  intro m ρ m' ρ' _ hagree
  refine ⟨fun c => Cert.KernelIdeal.HostValue.value (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.HostValue.result_eq m ρ c), (h c).2⟩)
      (Cert.KernelIdeal.RunValue.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v35_eq, Cert.ReferenceIdeal.RefValue.result_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
